-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x36x2048 : Shape := ⟨3, ![64, 36, 2048]⟩
abbrev S64x1024 : Shape := ⟨2, ![64, 1024]⟩
abbrev S2048x5120 : Shape := ⟨2, ![2048, 5120]⟩
abbrev S2048 : Shape := ⟨1, ![2048]⟩
abbrev S2048x2048 : Shape := ⟨2, ![2048, 2048]⟩
abbrev S1024x1024 : Shape := ⟨2, ![1024, 1024]⟩
abbrev S1024 : Shape := ⟨1, ![1024]⟩
abbrev S_ : Shape := ⟨0, ![]⟩

class Facts : Prop where
  bcast_S_S64x36x2048 : S_.BroadcastsInDim S64x36x2048 (![] : Fin 0 → Fin S64x36x2048.rank)
  reducesTo_S64x36x2048_S_d0_1_2 : S64x36x2048.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S2048x5120 : S_.BroadcastsInDim S2048x5120 (![] : Fin 0 → Fin S2048x5120.rank)
  reducesTo_S2048x5120_S_d0_1 : S2048x5120.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S1024x1024 .f32) (main_arg7 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S64x36x2048 .f32) (main_arg1 : FVec F S64x1024 .f32) (main_arg2 : FVec F S2048x5120 .f32) (main_arg3 : FVec F S2048 .f32) (main_arg4 : FVec F S2048x2048 .f32) (main_arg5 : FVec F S2048 .f32) (main_arg6 : FVec F S1024x1024 .f32) (main_arg7 : FVec F S1024 .f32) : IVec S_ 1 :=
  let main_v0 : FVec F S64x36x2048 .f32 := Host.absf main_arg0
  let main_cst : FVec F S_ .f32 := constant S_ .f32 0x7F800000#32
  let main_v1 : FVec F S64x36x2048 .f32 := broadcastInDim S64x36x2048 ![] bcast_S_S64x36x2048 main_cst
  let main_v2 : IVec S64x36x2048 1 := cmpf .olt main_v0 main_v1
  let main_c : IVec S_ 1 := constantI S_ 1 1#1
  let main_v3 : IVec S_ 1 := (fun x v => Host.reduce IntOp.andi x v reducesTo_S64x36x2048_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S2048x5120 .f32 := Host.absf main_arg2
  let main_cst_2 : FVec F S_ .f32 := constant S_ .f32 0x7F800000#32
  let main_v10 : FVec F S2048x5120 .f32 := broadcastInDim S2048x5120 ![] bcast_S_S2048x5120 main_cst_2
  let main_v11 : IVec S2048x5120 1 := cmpf .olt main_v9 main_v10
  let main_c_3 : IVec S_ 1 := constantI S_ 1 1#1
  let main_v12 : IVec S_ 1 := (fun x v => Host.reduce IntOp.andi x v reducesTo_S2048x5120_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S64x36x2048 : Shape := ⟨3, ![64, 36, 2048]⟩
abbrev S64x1024 : Shape := ⟨2, ![64, 1024]⟩
abbrev S2048x5120 : Shape := ⟨2, ![2048, 5120]⟩
abbrev S2048 : Shape := ⟨1, ![2048]⟩
abbrev S2048x2048 : Shape := ⟨2, ![2048, 2048]⟩
abbrev S1024x1024 : Shape := ⟨2, ![1024, 1024]⟩
abbrev S1024 : Shape := ⟨1, ![1024]⟩
abbrev S1x1024 : Shape := ⟨2, ![1, 1024]⟩
abbrev S64x1x1024 : Shape := ⟨3, ![64, 1, 1024]⟩
abbrev S1x36x2048 : Shape := ⟨3, ![1, 36, 2048]⟩
abbrev S1x1x1024 : Shape := ⟨3, ![1, 1, 1024]⟩
abbrev S36x2048 : Shape := ⟨2, ![36, 2048]⟩
abbrev S2048x1024 : Shape := ⟨2, ![2048, 1024]⟩
abbrev S1x2048 : Shape := ⟨2, ![1, 2048]⟩

abbrev nBuf : Space → Nat
  | .hbm => 16
  | .vmem => 14
  | .smem => 0
  | _ => 0

abbrev bufTy : (tb : Table) → Fin (tcTables nBuf tb) → BufTy
  | .hbm, ⟨0, _⟩ => ⟨S64x36x2048, .f32⟩
  | .hbm, ⟨1, _⟩ => ⟨S64x1024, .f32⟩
  | .hbm, ⟨2, _⟩ => ⟨S2048x5120, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S1024x1024, .f32⟩
  | .hbm, ⟨7, _⟩ => ⟨S1024, .f32⟩
  | .hbm, ⟨8, _⟩ => ⟨S64x36x2048, .bf16⟩
  | .hbm, ⟨9, _⟩ => ⟨S64x1024, .bf16⟩
  | .hbm, ⟨10, _⟩ => ⟨S2048x5120, .bf16⟩
  | .hbm, ⟨11, _⟩ => ⟨S2048x2048, .bf16⟩
  | .hbm, ⟨12, _⟩ => ⟨S1024x1024, .bf16⟩
  | .hbm, ⟨13, _⟩ => ⟨S64x1024, .f32⟩
  | .hbm, ⟨14, _⟩ => ⟨S64x1x1024, .f32⟩
  | .hbm, ⟨15, _⟩ => ⟨S64x36x2048, .f32⟩
  | .local _ .vmem, ⟨0, _⟩ => ⟨S64x1024, .bf16⟩
  | .local _ .vmem, ⟨1, _⟩ => ⟨S1024x1024, .bf16⟩
  | .local _ .vmem, ⟨2, _⟩ => ⟨S1024, .f32⟩
  | .local _ .vmem, ⟨3, _⟩ => ⟨S64x1024, .f32⟩
  | .local _ .vmem, ⟨4, _⟩ => ⟨S1x36x2048, .bf16⟩
  | .local _ .vmem, ⟨5, _⟩ => ⟨S1x36x2048, .bf16⟩
  | .local _ .vmem, ⟨6, _⟩ => ⟨S1x1x1024, .f32⟩
  | .local _ .vmem, ⟨7, _⟩ => ⟨S1x1x1024, .f32⟩
  | .local _ .vmem, ⟨8, _⟩ => ⟨S2048x5120, .bf16⟩
  | .local _ .vmem, ⟨9, _⟩ => ⟨S2048x2048, .bf16⟩
  | .local _ .vmem, ⟨10, _⟩ => ⟨S2048, .f32⟩
  | .local _ .vmem, ⟨11, _⟩ => ⟨S2048, .f32⟩
  | .local _ .vmem, ⟨12, _⟩ => ⟨S1x36x2048, .f32⟩
  | .local _ .vmem, ⟨13, _⟩ => ⟨S1x36x2048, .f32⟩
  | _, _ => ⟨S64x36x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x36x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x5120 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x36x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  shapeCasts_S64x1024_S64x1x1024 : S64x1024.ShapeCasts S64x1x1024
  inb_S1x36x2048_S1x36x2048_0_0_0 : ∀ a, (![0, 0, 0] : Fin 3 → Nat) a + S1x36x2048.size a ≤ S1x36x2048.size a
  h_S1x36x2048 : 0 < S1x36x2048.numel
  shapeCasts_S1x36x2048_S36x2048 : S1x36x2048.ShapeCasts S36x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S2048x5120_S2048x2048_0_0 : ∀ a, (![0, 0] : Fin 2 → Nat) a + S2048x2048.size a ≤ S2048x5120.size a
  h_S2048x2048 : 0 < S2048x2048.numel
  shapeCasts_S2048x2048_S2048x2048 : S2048x2048.ShapeCasts S2048x2048
  inb_S2048x5120_S2048x2048_0_2048 : ∀ a, (![0, 2048] : Fin 2 → Nat) a + S2048x2048.size a ≤ S2048x5120.size a
  inb_S2048x5120_S2048x1024_0_4096 : ∀ a, (![0, 4096] : Fin 2 → Nat) a + S2048x1024.size a ≤ S2048x5120.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S1x2048 : S2048.ShapeCasts S1x2048
  slices_S36x2048_o0_0_S1x2048 : S36x2048.Slices ![0, 0] S1x2048
  broadcasts_S1x2048_S36x2048 : S1x2048.Broadcasts S36x2048
  slices_S36x2048_o1_0_S1x2048 : S36x2048.Slices ![1, 0] S1x2048
  slices_S36x2048_o2_0_S1x2048 : S36x2048.Slices ![2, 0] S1x2048
  slices_S36x2048_o3_0_S1x2048 : S36x2048.Slices ![3, 0] S1x2048
  slices_S36x2048_o4_0_S1x2048 : S36x2048.Slices ![4, 0] S1x2048
  slices_S36x2048_o5_0_S1x2048 : S36x2048.Slices ![5, 0] S1x2048
  slices_S36x2048_o6_0_S1x2048 : S36x2048.Slices ![6, 0] S1x2048
  slices_S36x2048_o7_0_S1x2048 : S36x2048.Slices ![7, 0] S1x2048
  slices_S36x2048_o8_0_S1x2048 : S36x2048.Slices ![8, 0] S1x2048
  slices_S36x2048_o9_0_S1x2048 : S36x2048.Slices ![9, 0] S1x2048
  slices_S36x2048_o10_0_S1x2048 : S36x2048.Slices ![10, 0] S1x2048
  slices_S36x2048_o11_0_S1x2048 : S36x2048.Slices ![11, 0] S1x2048
  slices_S36x2048_o12_0_S1x2048 : S36x2048.Slices ![12, 0] S1x2048
  slices_S36x2048_o13_0_S1x2048 : S36x2048.Slices ![13, 0] S1x2048
  slices_S36x2048_o14_0_S1x2048 : S36x2048.Slices ![14, 0] S1x2048
  slices_S36x2048_o15_0_S1x2048 : S36x2048.Slices ![15, 0] S1x2048
  slices_S36x2048_o16_0_S1x2048 : S36x2048.Slices ![16, 0] S1x2048
  slices_S36x2048_o17_0_S1x2048 : S36x2048.Slices ![17, 0] S1x2048
  slices_S36x2048_o18_0_S1x2048 : S36x2048.Slices ![18, 0] S1x2048
  slices_S36x2048_o19_0_S1x2048 : S36x2048.Slices ![19, 0] S1x2048
  slices_S36x2048_o20_0_S1x2048 : S36x2048.Slices ![20, 0] S1x2048
  slices_S36x2048_o21_0_S1x2048 : S36x2048.Slices ![21, 0] S1x2048
  slices_S36x2048_o22_0_S1x2048 : S36x2048.Slices ![22, 0] S1x2048
  slices_S36x2048_o23_0_S1x2048 : S36x2048.Slices ![23, 0] S1x2048
  slices_S36x2048_o24_0_S1x2048 : S36x2048.Slices ![24, 0] S1x2048
  slices_S36x2048_o25_0_S1x2048 : S36x2048.Slices ![25, 0] S1x2048
  slices_S36x2048_o26_0_S1x2048 : S36x2048.Slices ![26, 0] S1x2048
  slices_S36x2048_o27_0_S1x2048 : S36x2048.Slices ![27, 0] S1x2048
  slices_S36x2048_o28_0_S1x2048 : S36x2048.Slices ![28, 0] S1x2048
  slices_S36x2048_o29_0_S1x2048 : S36x2048.Slices ![29, 0] S1x2048
  slices_S36x2048_o30_0_S1x2048 : S36x2048.Slices ![30, 0] S1x2048
  slices_S36x2048_o31_0_S1x2048 : S36x2048.Slices ![31, 0] S1x2048
  slices_S36x2048_o32_0_S1x2048 : S36x2048.Slices ![32, 0] S1x2048
  slices_S36x2048_o33_0_S1x2048 : S36x2048.Slices ![33, 0] S1x2048
  slices_S36x2048_o34_0_S1x2048 : S36x2048.Slices ![34, 0] S1x2048
  slices_S36x2048_o35_0_S1x2048 : S36x2048.Slices ![35, 0] S1x2048
  inb_S2048x2048_S2048x2048_0_0 : ∀ a, (![0, 0] : Fin 2 → Nat) a + S2048x2048.size a ≤ S2048x2048.size a
  shapeCasts_S36x2048_S1x36x2048 : S36x2048.ShapeCasts S1x36x2048
  dot_S64x1024_S1024x1024_S64x1024_1_1_0_0_n_n_wf : DotDims.WF S64x1024 S1024x1024 S64x1024 [1] [1] [0] [0] [] []
  dot_S36x2048_S2048x2048_S36x2048_1_1_0_0_n_n_wf : DotDims.WF S36x2048 S2048x2048 S36x2048 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .bf16 = 32 ∨ (Rect.block (s := S64x1024) S64x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x36x2048.size a ≤ S64x36x2048.size a
  hwx1_0 : ∀ i : grid1.Coords, EltTy.bits .bf16 = 32 ∨ (Rect.block (s := S64x36x2048) S1x36x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S64x1x1024.size a
  hwx1_1 : ∀ i : grid1.Coords, EltTy.bits .f32 = 32 ∨ (Rect.block (s := S64x1x1024) S1x1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x5120.size a ≤ S2048x5120.size a
  hwx1_2 : ∀ i : grid1.Coords, EltTy.bits .bf16 = 32 ∨ (Rect.block (s := S2048x5120) S2048x5120.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S2048.size a
  hwx1_4 : ∀ i : grid1.Coords, EltTy.bits .f32 = 32 ∨ (Rect.block (s := S2048) S2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048.size a ≤ S2048.size a
  hwx1_5 : ∀ i : grid1.Coords, EltTy.bits .f32 = 32 ∨ (Rect.block (s := S2048) S2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x36x2048.size a ≤ S64x36x2048.size a
  hwx1_6 : ∀ i : grid1.Coords, EltTy.bits .f32 = 32 ∨ (Rect.block (s := S64x36x2048) S1x36x2048.size (cc1_transform_6 i) (hinb1_6 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S36x2048_S2048x2048_S36x2048_1_1_0_0_n_n : DotDims S36x2048 S2048x2048 S36x2048 where
  lhsContracting := [1]
  rhsContracting := [1]
  lhsNonContracting := [0]
  rhsNonContracting := [0]
  lhsBatch := []
  rhsBatch := []
  wf := dot_S36x2048_S2048x2048_S36x2048_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v1) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x36x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x5120.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x36x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x36x2048 : Shape := ⟨3, ![64, 36, 2048]⟩
abbrev S64x1024 : Shape := ⟨2, ![64, 1024]⟩
abbrev S2048x5120 : Shape := ⟨2, ![2048, 5120]⟩
abbrev S2048 : Shape := ⟨1, ![2048]⟩
abbrev S2048x2048 : Shape := ⟨2, ![2048, 2048]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048x1024 : Shape := ⟨2, ![2048, 1024]⟩
abbrev S64x2048 : Shape := ⟨2, ![64, 2048]⟩
abbrev S1x2048 : Shape := ⟨2, ![1, 2048]⟩
abbrev S64x36x1x2048 : Shape := ⟨4, ![64, 36, 1, 2048]⟩
abbrev S64x1x36x2048 : Shape := ⟨4, ![64, 1, 36, 2048]⟩
abbrev S64x36x36x2048 : Shape := ⟨4, ![64, 36, 36, 2048]⟩
abbrev S64x1x1x2048 : Shape := ⟨4, ![64, 1, 1, 2048]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S64x36x2048, .f32⟩
  | .hbm, ⟨1, _⟩ => ⟨S64x1024, .f32⟩
  | .hbm, ⟨2, _⟩ => ⟨S2048x5120, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S64x1024, .f32⟩
  | .hbm, ⟨10, _⟩ => ⟨S1x1024, .f32⟩
  | .hbm, ⟨11, _⟩ => ⟨S64x1024, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S2048x2048, .f32⟩
  | .hbm, ⟨17, _⟩ => ⟨S2048x2048, .f32⟩
  | .hbm, ⟨18, _⟩ => ⟨S2048x1024, .f32⟩
  | .hbm, ⟨19, _⟩ => ⟨S64x36x2048, .f32⟩
  | .hbm, ⟨20, _⟩ => ⟨S64x36x2048, .f32⟩
  | .hbm, ⟨21, _⟩ => ⟨S64x2048, .f32⟩
  | .hbm, ⟨22, _⟩ => ⟨S1x2048, .f32⟩
  | .hbm, ⟨23, _⟩ => ⟨S64x2048, .f32⟩
  | .hbm, ⟨24, _⟩ => ⟨S64x2048, .f32⟩
  | .hbm, ⟨25, _⟩ => ⟨S64x36x1x2048, .f32⟩
  | .hbm, ⟨26, _⟩ => ⟨S64x1x36x2048, .f32⟩
  | .hbm, ⟨27, _⟩ => ⟨S64x36x36x2048, .f32⟩
  | .hbm, ⟨28, _⟩ => ⟨S64x36x36x2048, .f32⟩
  | .hbm, ⟨29, _⟩ => ⟨S64x36x36x2048, .f32⟩
  | .hbm, ⟨30, _⟩ => ⟨S64x1x1x2048, .f32⟩
  | .hbm, ⟨31, _⟩ => ⟨S64x36x36x2048, .f32⟩
  | .hbm, ⟨32, _⟩ => ⟨S64x36x36x2048, .f32⟩
  | .hbm, ⟨33, _⟩ => ⟨S_, .f32⟩
  | .hbm, ⟨34, _⟩ => ⟨S64x36x36x2048, .f32⟩
  | .hbm, ⟨35, _⟩ => ⟨S64x36x36x2048, .f32⟩
  | .hbm, ⟨36, _⟩ => ⟨S_, .f32⟩
  | .hbm, ⟨37, _⟩ => ⟨S64x36x2048, .f32⟩
  | .hbm, ⟨38, _⟩ => ⟨S64x36x2048, .f32⟩
  | .hbm, ⟨39, _⟩ => ⟨S1x1x2048, .f32⟩
  | .hbm, ⟨40, _⟩ => ⟨S64x36x2048, .f32⟩
  | .hbm, ⟨41, _⟩ => ⟨S64x36x2048, .f32⟩
  | .hbm, ⟨42, _⟩ => ⟨S_, .f32⟩
  | .hbm, ⟨43, _⟩ => ⟨S64x36x2048, .f32⟩
  | .hbm, ⟨44, _⟩ => ⟨S64x36x2048, .f32⟩
  | _, _ => ⟨S64x36x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_cst : Ref sig .tc := ⟨.hbm, 33, rfl⟩
abbrev main_call1_v0 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call2_cst : Ref sig .tc := ⟨.hbm, 42, rfl⟩
abbrev main_call2_v0 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  slices_S2048x5120_S2048x2048_0_0 : S2048x5120.Slices ![0, 0] S2048x2048
  slices_S2048x5120_S2048x2048_0_2048 : S2048x5120.Slices ![0, 2048] S2048x2048
  slices_S2048x5120_S2048x1024_0_4096 : S2048x5120.Slices ![0, 4096] S2048x1024
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S64x36x2048_S64x36x1x2048_0_1_3 : S64x36x2048.BroadcastsInDim S64x36x1x2048 (![0, 1, 3] : Fin 3 → Fin S64x36x1x2048.rank)
  bcast_S64x36x2048_S64x1x36x2048_0_2_3 : S64x36x2048.BroadcastsInDim S64x1x36x2048 (![0, 2, 3] : Fin 3 → Fin S64x1x36x2048.rank)
  bcast_S64x36x1x2048_S64x36x36x2048_0_1_2_3 : S64x36x1x2048.BroadcastsInDim S64x36x36x2048 (![0, 1, 2, 3] : Fin 4 → Fin S64x36x36x2048.rank)
  bcast_S64x1x36x2048_S64x36x36x2048_0_1_2_3 : S64x1x36x2048.BroadcastsInDim S64x36x36x2048 (![0, 1, 2, 3] : Fin 4 → Fin S64x36x36x2048.rank)
  bcast_S64x2048_S64x1x1x2048_0_3 : S64x2048.BroadcastsInDim S64x1x1x2048 (![0, 3] : Fin 2 → Fin S64x1x1x2048.rank)
  bcast_S64x1x1x2048_S64x36x36x2048_0_1_2_3 : S64x1x1x2048.BroadcastsInDim S64x36x36x2048 (![0, 1, 2, 3] : Fin 4 → Fin S64x36x36x2048.rank)
  bcast_S_S64x36x36x2048 : S_.BroadcastsInDim S64x36x36x2048 (![] : Fin 0 → Fin S64x36x36x2048.rank)
  reducesTo_S64x36x36x2048_S64x36x2048_d2 : S64x36x36x2048.ReducesTo [2] S64x36x2048
  h_S_ : 0 < S_.numel
  bcast_S2048_S1x1x2048_2 : S2048.BroadcastsInDim S1x1x2048 (![2] : Fin 1 → Fin S1x1x2048.rank)
  bcast_S1x1x2048_S64x36x2048_0_1_2 : S1x1x2048.BroadcastsInDim S64x36x2048 (![0, 1, 2] : Fin 3 → Fin S64x36x2048.rank)
  bcast_S_S64x36x2048 : S_.BroadcastsInDim S64x36x2048 (![] : Fin 0 → Fin S64x36x2048.rank)
  dot_S64x1024_S1024x1024_S64x1024_1_0_0_1_n_n_wf : DotDims.WF S64x1024 S1024x1024 S64x1024 [1] [0] [0] [1] [] []
  dot_S64x36x2048_S2048x2048_S64x36x2048_2_1_01_0_n_n_wf : DotDims.WF S64x36x2048 S2048x2048 S64x36x2048 [2] [1] [0, 1] [0] [] []
  dot_S64x1024_S2048x1024_S64x2048_1_1_0_0_n_n_wf : DotDims.WF S64x1024 S2048x1024 S64x2048 [1] [1] [0] [0] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x36x2048_S2048x2048_S64x36x2048_2_1_01_0_n_n : DotDims S64x36x2048 S2048x2048 S64x36x2048 where
  lhsContracting := [2]
  rhsContracting := [1]
  lhsNonContracting := [0, 1]
  rhsNonContracting := [0]
  lhsBatch := []
  rhsBatch := []
  wf := dot_S64x36x2048_S2048x2048_S64x36x2048_2_1_01_0_n_n_wf
def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf

class Facts : Prop extends Facts₀ where

variable [Facts]
-- ==== Proof.KernelRun.lean ====
/-
  The two-kernel program's run, with its result named.

  The program is a stretch of format changes, the kernel that embeds the questions, one reshape, and the kernel that
  pools the pairs. Every weakly fair execution from a memory with zero counters terminates without a fault, and in
  the final memory the result array holds what the second kernel's write-backs leave of it (the pipeline's final
  array of its output window, read where the second kernel's region ends), while the eight argument arrays are as
  launched. This is the launch of the program's four segments read against the final state, with the result's
  buffer read beside the arguments'.

  Below that: the result's buffer IS the output window's array of the second kernel, and the question embedding
  that kernel reads is the reshape of the first kernel's output window's final array.
-/
import proofs.«119262_j54820962566529_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result's buffer ends at the contents the last segment boundary gives it, the arguments as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result's buffer is the second kernel's output window's array: at the last boundary it holds that window's
    final array. -/
theorem result_eq (c : Dev nD) : W4 m ρ c (Proc.devRef .tc main_v7) = (dat1 (V3 m ρ) c).arrAt 6 cfg1.N :=
  W4_arr m ρ c 6

end Cert.KernelIdeal.Named

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«119262_j54820962566529_1_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibTileForms.lean ====
/-
  A tile body's layout forms, read at an entry; every extent is generic.

  A body that works on an [a, b] tile meets these again and again: one row of an [m, b] block cut out as [1, b] and
  repeated down the tile's rows; a [1, b] row repeated the same way; a [b] vector recast to the row [1, b] first; a
  [1, a, b] slab viewed as the matrix [a, b], and the matrix stored back as a slab; a band of columns of a wide matrix
  loaded through its rectangle; an [a, b] array given a unit middle axis. Each lemma reads one form at an entry as the
  operand at the evident index.
-/
import Idealize.ShloMosaic.PureOps.Ideal.Laws
import Idealize.ShloMosaic.Lib.ValueIdx
import Idealize.ShloMosaic.Lib.ValueLayout
import Idealize.ShloMosaic.Lib.Pipeline.Value

namespace TileForms

open Idealize.ShloMosaic Idealize.ShloMosaic.ValueIdx

variable {a b m : ℕ} {α : Type}

/-- Row `k` of an [m, b] block, cut out at the literal offset `o = k` and repeated down an [a, b] tile, reads at
    (p, c) the block at (k, c). -/
theorem blockRow_apply (B : (⟨2, ![m, b]⟩ : Shape).Idx → α) (o : ℕ) (k : Fin m) (hk : k.val = o)
    (hs : (⟨2, ![m, b]⟩ : Shape).Slices ![o, 0] ⟨2, ![1, b]⟩)
    (hb : (⟨2, ![1, b]⟩ : Shape).Broadcasts ⟨2, ![a, b]⟩) (p : Fin a) (c : Fin b) :
    broadcastTo ⟨2, ![a, b]⟩ (extractStridedSlice ⟨2, ![1, b]⟩ ![o, 0] B hs) hb (ix2 p c) = B (ix2 k c) :=
  (broadcastTo_1b_ab_apply _ hb p c).trans (slice2_axis0_apply o B hs (0 : Fin 1) c k (by simpa using hk))

/-- A [b] vector recast to the row [1, b] reads, at (0, c), the vector at c. -/
theorem rowCast_apply (x : (⟨1, ![b]⟩ : Shape).Idx → α) (h1 : (⟨1, ![b]⟩ : Shape).ShapeCasts ⟨2, ![1, b]⟩) (c : Fin b) :
    shapeCast ⟨2, ![1, b]⟩ x h1 (ix2 (0 : Fin 1) c) = x (ix1 c) :=
  shapeCast_a_1a_apply x h1 0 c

/-- A [b] vector recast to the row [1, b] and repeated down an [a, b] tile reads, at (p, c), the vector at c. -/
theorem biasRow_apply (x : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x h1) hb (ix2 p c) = x (ix1 c) :=
  (broadcastTo_1b_ab_apply _ hb p c).trans (rowCast_apply x h1 c)

/-- A [1, a, b] slab viewed as the matrix [a, b] reads, at (p, c), the slab at (0, p, c). -/
theorem slabAsMatrix_apply (x : (⟨3, ![1, a, b]⟩ : Shape).Idx → α) (h : (⟨3, ![1, a, b]⟩ : Shape).ShapeCasts ⟨2, ![a, b]⟩)
    (p : Fin a) (c : Fin b) : shapeCast ⟨2, ![a, b]⟩ x h (ix2 p c) = x (ix3 (0 : Fin 1) p c) := by
  refine (shapeCast_dropUnit_apply ![a, b] x h (ix2 p c)).trans (congrArg x ?_)
  funext d
  match d with
  | ⟨0, _⟩ => rfl
  | ⟨1, _⟩ => rfl
  | ⟨2, _⟩ => rfl

/-- A matrix [a, b] stored as the slab [1, a, b] reads, at (0, p, c), the matrix at (p, c). -/
theorem matrixAsSlab_apply (x : (⟨2, ![a, b]⟩ : Shape).Idx → α) (h : (⟨2, ![a, b]⟩ : Shape).ShapeCasts ⟨3, ![1, a, b]⟩)
    (u : Fin 1) (p : Fin a) (c : Fin b) : shapeCast ⟨3, ![1, a, b]⟩ x h (ix3 u p c) = x (ix2 p c) := by
  refine (shapeCast_addUnit_apply ![a, b] x h (ix3 u p c)).trans (congrArg x ?_)
  funext d
  match d with
  | ⟨0, _⟩ => rfl
  | ⟨1, _⟩ => rfl

/-- A band of `n` columns of an [r, w] matrix starting at column `o`, loaded through its rectangle, reads at (u, d) the
    matrix at (u, o + d). -/
theorem ld_band {Val : EltTy → Type} {e : EltTy} {r w n : ℕ} (x : (⟨2, ![r, w]⟩ : Shape).Idx → Val e) (o : ℕ)
    (inb : ∀ ax, (![0, o] : Fin 2 → ℕ) ax + (⟨2, ![r, n]⟩ : Shape).size ax ≤ (⟨2, ![r, w]⟩ : Shape).size ax)
    (u : Fin r) (d : Fin n) (k : Fin w) (hk : k.val = o + d.val) :
    View.ld (Val := Val) x (Rect.unit (s := ⟨2, ![r, w]⟩) ![0, o] (⟨2, ![r, n]⟩ : Shape).size inb) (ix2 u d) = x (ix2 u k) := by
  show x ((Rect.unit (s := ⟨2, ![r, w]⟩) ![0, o] (⟨2, ![r, n]⟩ : Shape).size inb).emb (ix2 u d)) = _
  refine congrArg x (funext fun ax => Fin.ext ?_)
  match ax with
  | ⟨0, _⟩ => show 0 + 1 * u.val = u.val; omega
  | ⟨1, _⟩ => show o + 1 * d.val = k.val; omega

/-- An [a, b] array given a unit middle axis reads, at (s, u, e), the array at (s, e). -/
theorem midUnit_apply {a b : ℕ} {α : Type} (x : (⟨2, ![a, b]⟩ : Shape).Idx → α)
    (h : (⟨2, ![a, b]⟩ : Shape).ShapeCasts ⟨3, ![a, 1, b]⟩) (s : Fin a) (u : Fin 1) (e : Fin b) :
    shapeCast ⟨3, ![a, 1, b]⟩ x h (ix3 s u e) = x (ix2 s e) :=
  shapeCast_apply x h _ _ (by
    have hu : u.val = 0 := by omega
    rw [Shape.rowMajor_val_two, Shape.rowMajor_val_three]
    show s.val * b + e.val = (s.val * 1 + u.val) * b + e.val
    rw [hu, Nat.mul_one, Nat.add_zero])

/-- The f32 word of +0 as a scalar constant denotes zero. -/
theorem scalar_zero : Scalar.ofBits (F := Ideal) .f32 0x00000000#32 = (0 : EReal) := Ideal.ofBits_zero_f32

end TileForms
-- ==== Proof.Spec.lean ====
/-
  Pooled pairwise relations, on the extended reals.

  For a batch of 64 scenes of 36 objects with 2048 features each (`v`) and one 1024-feature question per scene (`q`):
  the question is embedded, `e = max (q W3ᵀ + b3) 0`; the first layer's weight `W1` (2048 rows, 5120 columns) is cut
  into three column bands that act on the first object, the second object and the embedded question of a pair,
  `a = v Waᵀ`, `b = v Wbᵀ`, `c = e Wcᵀ + b1`; every ordered pair (i, j) of objects of a scene contributes
  `max ((a i + b j) + c) 0`, summed over the second object j; and a last layer `max (x W2ᵀ + b2) 0` is applied.
  Everything is a sum, a product or a maximum of extended reals; no law beyond the commutative monoid of sums is
  used anywhere below, so nothing here asks the data to be finite.

  Also here: a running total built by adding terms one after another is the finite sum of the terms.
-/
import Idealize.ShloMosaic.PureOps.Ideal
import Idealize.ShloMosaic.Lib.ValueIdx

noncomputable section

namespace RelationPool

open Idealize.ShloMosaic Idealize.ShloMosaic.ValueIdx

/-! ## A running total -/

/-- The terms `t lo, t (lo + 1), …, t (lo + n - 1)` added one after another onto `acc`, leftmost first. -/
def runSum (t : ℕ → EReal) : ℕ → ℕ → EReal → EReal
  | _, 0, acc => acc
  | lo, n + 1, acc => runSum t (lo + 1) n (acc + t lo)

/-- Adding terms one after another gives the start plus their finite sum. -/
theorem runSum_eq (t : ℕ → EReal) : ∀ (n lo : ℕ) (acc : EReal),
    runSum t lo n acc = acc + ∑ j ∈ Finset.range n, t (lo + j)
  | 0, lo, acc => by simp [runSum]
  | n + 1, lo, acc => by
    have h : ∑ j ∈ Finset.range (n + 1), t (lo + j) = t lo + ∑ j ∈ Finset.range n, t (lo + 1 + j) := by
      rw [Finset.sum_range_succ']
      exact (add_comm _ _).trans
        (congrArg₂ (· + ·) rfl (Finset.sum_congr rfl fun j _ => congrArg t (by omega)))
    rw [runSum, runSum_eq t n (lo + 1) (acc + t lo), h, add_assoc]

/-- From zero and from position zero, over `n` terms, the running total is the sum over `Fin n`. -/
theorem runSum_zero (t : ℕ → EReal) (n : ℕ) : runSum t 0 n 0 = ∑ j : Fin n, t (0 + j.val) := by
  rw [runSum_eq, zero_add, Finset.sum_range]

/-! ## The layer, entry by entry -/

/-- Column `d` of the band of `W1` that starts at column `o`. -/
abbrev band (o n : ℕ) (h : o + n ≤ 5120) (d : Fin n) : Fin 5120 := ⟨o + d.val, by have := d.isLt; omega⟩

variable (v : (⟨3, ![64, 36, 2048]⟩ : Shape).Idx → EReal) (q : (⟨2, ![64, 1024]⟩ : Shape).Idx → EReal)
  (W1 : (⟨2, ![2048, 5120]⟩ : Shape).Idx → EReal) (b1 : (⟨1, ![2048]⟩ : Shape).Idx → EReal)
  (W2 : (⟨2, ![2048, 2048]⟩ : Shape).Idx → EReal) (b2 : (⟨1, ![2048]⟩ : Shape).Idx → EReal)
  (W3 : (⟨2, ![1024, 1024]⟩ : Shape).Idx → EReal) (b3 : (⟨1, ![1024]⟩ : Shape).Idx → EReal)

/-- The embedded question of scene `s`, feature `n`. -/
def embed (s : Fin 64) (n : Fin 1024) : EReal :=
  max (∑ k : Fin 1024, q (ix2 s k) * W3 (ix2 n k) + b3 (ix1 n)) 0

/-- The first object's part of a pair: object `i` of scene `s` through the first band. -/
def first (s : Fin 64) (i : Fin 36) (u : Fin 2048) : EReal :=
  ∑ d : Fin 2048, v (ix3 s i d) * W1 (ix2 u (band 0 2048 (by decide) d))

/-- The second object's part: object `j` through the second band. -/
def second (s : Fin 64) (j : Fin 36) (u : Fin 2048) : EReal :=
  ∑ d : Fin 2048, v (ix3 s j d) * W1 (ix2 u (band 2048 2048 (by decide) d))

/-- The question's part, for embedded questions `e`: scene s's embedded question through the third band, plus the bias. -/
def asked (e : Fin 64 → Fin 1024 → EReal) (s : Fin 64) (u : Fin 2048) : EReal :=
  (∑ k : Fin 1024, e s k * W1 (ix2 u (band 4096 1024 (by decide) k))) + b1 (ix1 u)

/-- Object `i`'s relations with every object of its scene, rectified and summed. -/
def pooled (e : Fin 64 → Fin 1024 → EReal) (s : Fin 64) (i : Fin 36) (u : Fin 2048) : EReal :=
  ∑ j : Fin 36, max ((first v W1 s i u + second v W1 s j u) + asked W1 b1 e s u) 0

/-- The pooling layer and the last layer over embedded questions `e`, entry by entry. -/
def layer (e : Fin 64 → Fin 1024 → EReal) : (⟨3, ![64, 36, 2048]⟩ : Shape).Idx → EReal := fun x =>
  max (∑ u : Fin 2048, pooled v W1 b1 e (x 0) (x 1) u * W2 (ix2 (x 2) u) + b2 (ix1 (x 2))) 0

/-- The whole result: the layers over the embedded questions. -/
def result : (⟨3, ![64, 36, 2048]⟩ : Shape).Idx → EReal :=
  layer v W1 b1 W2 b2 (embed q W3 b3)

end RelationPool

end
-- ==== Proof.PoolBody.lean ====
/-
  The two kernel bodies' arithmetic, read at an entry of the tile, on the extended reals.

  The embedding kernel's tile is `max (q W3ᵀ + b3) 0`. The pooling kernel works on one scene: its three products
  `a = v Waᵀ`, `b = v Wbᵀ` (36 rows each) and `c = e Wcᵀ + b1` (one row), then, for each object j of the scene in turn,
  row j of `b` repeated down the tile, `max ((a + b_j) + c) 0`, added onto a running total that starts at zero; the
  total goes through the last layer `max (x W2ᵀ + b2) 0`. At entry (p, c) the 36 additions are the running total
  of the terms `max ((a (p, c) + b (j, c)) + c (0, c)) 0`, hence their sum over j. Every product here contracts both
  operands' columns, so it is read as the sum over k of lhs (p, k) · rhs (c, k).
-/
import proofs.«119262_j54820962566529_1_alg».proof.Proof.Gen.KernelIdeal.Skeleton
import proofs.«119262_j54820962566529_1_alg».proof.Proof.LibTransposedRecord
import proofs.«119262_j54820962566529_1_alg».proof.Proof.LibTileForms
import proofs.«119262_j54820962566529_1_alg».proof.Proof.Spec

noncomputable section

namespace RelationPool.Body

open Idealize.ShloMosaic Idealize.ShloMosaic.ValueIdx Cert.KernelIdeal Cert.KernelIdeal.Gen RelationPool TileForms

/-! ## The products -/

/-- The embedding kernel's product at (s, n): scene s's question against row n of the weight. -/
theorem embedProduct_apply {φ₁ φ₂ : FTy} (lhs : FVec Ideal S64x1024 φ₁) (rhs : FVec Ideal S1024x1024 φ₂) (s : Fin 64) (n : Fin 1024) :
    matmul dot_S64x1024_S1024x1024_S64x1024_1_1_0_0_n_n none lhs rhs (constant S64x1024 .f32 0x00000000#32) (ix2 s n)
      = ∑ k : Fin 1024, lhs (ix2 s k) * rhs (ix2 n k) :=
  TransposedRecord.matmul_zero_apply dot_S64x1024_S1024x1024_S64x1024_1_1_0_0_n_n rfl rfl rfl rfl rfl rfl lhs rhs none s n

/-- A 36-row tile against a square weight, at (p, c). -/
theorem tileProduct_apply {φ₁ φ₂ : FTy} (lhs : FVec Ideal S36x2048 φ₁) (rhs : FVec Ideal S2048x2048 φ₂) (p : Fin 36) (c : Fin 2048) :
    matmul dot_S36x2048_S2048x2048_S36x2048_1_1_0_0_n_n none lhs rhs (constant S36x2048 .f32 0x00000000#32) (ix2 p c)
      = ∑ k : Fin 2048, lhs (ix2 p k) * rhs (ix2 c k) :=
  TransposedRecord.matmul_zero_apply dot_S36x2048_S2048x2048_S36x2048_1_1_0_0_n_n rfl rfl rfl rfl rfl rfl lhs rhs none p c

/-- The one-row question against the third band, at (0, c). -/
theorem rowProduct_apply {φ₁ φ₂ : FTy} (lhs : FVec Ideal S1x1024 φ₁) (rhs : FVec Ideal S2048x1024 φ₂) (u : Fin 1) (c : Fin 2048) :
    matmul dot_S1x1024_S2048x1024_S1x2048_1_1_0_0_n_n none lhs rhs (constant S1x2048 .f32 0x00000000#32) (ix2 u c)
      = ∑ k : Fin 1024, lhs (ix2 u k) * rhs (ix2 c k) :=
  TransposedRecord.matmul_zero_apply dot_S1x1024_S2048x1024_S1x2048_1_1_0_0_n_n rfl rfl rfl rfl rfl rfl lhs rhs none u c

/-! ## The embedding kernel's tile -/

/-- Entry (s, n) of the embedding kernel's stored tile. -/
theorem embed_apply (x0 : Vec Ideal S64x1024 .bf16) (x1 : Vec Ideal S1024x1024 .bf16) (x2 : Vec Ideal S1024 .f32) (s : Fin 64) (n : Fin 1024) :
    k0_pay1 (F := Ideal) x0 x1 x2 (ix2 s n) = max ((∑ k : Fin 1024, x0 (ix2 s k) * x1 (ix2 n k)) + x2 (ix1 n)) 0 := by
  simp only [k0_pay1, addf_apply, maximumf_apply, broadcast_apply, scalar_zero, embedProduct_apply, shapeCast_self, biasRow_apply]

/-! ## The pooling kernel: products and the bias row -/

/-- The scene's slab viewed as a 36-row matrix. -/
theorem scene_apply (v0 : Vec Ideal S1x36x2048 .bf16) (p : Fin 36) (k : Fin 2048) :
    k1_pay2 (F := Ideal) v0 (ix2 p k) = v0 (ix3 (0 : Fin 1) p k) := by
  simp only [k1_pay2, slabAsMatrix_apply]

/-- `a`: the scene against the first band. -/
theorem firstPart_apply (v0 : Vec Ideal S1x36x2048 .bf16) (v5 : Vec Ideal S2048x2048 .bf16) (p : Fin 36) (c : Fin 2048) :
    k1_pay3 (F := Ideal) v0 v5 (ix2 p c) = ∑ k : Fin 2048, v0 (ix3 (0 : Fin 1) p k) * v5 (ix2 c k) := by
  simp only [k1_pay3, tileProduct_apply, shapeCast_self, scene_apply]

/-- `b`: the scene against the second band. -/
theorem secondPart_apply (v0 : Vec Ideal S1x36x2048 .bf16) (v7 : Vec Ideal S2048x2048 .bf16) (p : Fin 36) (c : Fin 2048) :
    k1_pay4 (F := Ideal) v0 v7 (ix2 p c) = ∑ k : Fin 2048, v0 (ix3 (0 : Fin 1) p k) * v7 (ix2 c k) := by
  simp only [k1_pay4, tileProduct_apply, shapeCast_self, scene_apply]

/-- `c`: the embedded question against the third band, plus the bias. -/
theorem askedPart_apply (v2 : Vec Ideal S1x1x1024 .f32) (v9 : Vec Ideal S2048x1024 .bf16) (v14 : Vec Ideal S2048 .f32) (c : Fin 2048) :
    k1_pay5 (F := Ideal) v2 v9 v14 (ix2 (0 : Fin 1) c)
      = (∑ k : Fin 1024, v2 (ix3 (0 : Fin 1) (0 : Fin 1) k) * v9 (ix2 c k)) + v14 (ix1 c) := by
  simp only [k1_pay5, addf_apply, rowProduct_apply, truncf_apply, shapeCast_self, slabAsMatrix_apply, rowCast_apply]

/-! ## The pooling kernel: the 36 additions -/

/-- Row `j` of a 36-row block (the row index taken modulo 36, so that it is total). -/
def row36 (j : ℕ) : Fin 36 := ⟨j % 36, Nat.mod_lt j (by decide)⟩

theorem row36_val (j : Fin 36) : row36 (0 + j.val) = j :=
  Fin.ext (by show (0 + j.val) % 36 = j.val; rw [Nat.zero_add, Nat.mod_eq_of_lt j.isLt])

/-- The pair (p, j)'s rectified term at column c. -/
def term (A Bp : FVec Ideal S36x2048 .f32) (C : FVec Ideal S1x2048 .f32) (p : Fin 36) (c : Fin 2048) (j : ℕ) : EReal :=
  max ((A (ix2 p c) + Bp (ix2 (row36 j) c)) + C (ix2 (0 : Fin 1) c)) 0

/-- Row `o` of `b` cut out and repeated down the tile. -/
theorem sliceRow (Bp : FVec Ideal S36x2048 .f32) (p : Fin 36) (c : Fin 2048) (o : ℕ) (ho : o < 36)
    (hs : S36x2048.Slices ![o, 0] S1x2048) (hb : S1x2048.Broadcasts S36x2048) :
    broadcastTo S36x2048 (extractStridedSlice S1x2048 ![o, 0] Bp hs) hb (ix2 p c) = Bp (ix2 (row36 o) c) :=
  blockRow_apply Bp o (row36 o) (Nat.mod_eq_of_lt ho) hs hb p c

/-- The row `c` repeated down the tile. -/
theorem rowC (C : FVec Ideal S1x2048 .f32) (p : Fin 36) (c : Fin 2048) (hb : S1x2048.Broadcasts S36x2048) :
    broadcastTo S36x2048 C hb (ix2 p c) = C (ix2 (0 : Fin 1) c) :=
  broadcastTo_1b_ab_apply C hb p c

section Steps

variable (A Bp : FVec Ideal S36x2048 .f32) (C : FVec Ideal S1x2048 .f32) (p : Fin 36) (c : Fin 2048)

/-- Objects 0 and 1 added onto zero. -/
theorem steps0_apply (v0 : Vec Ideal S1x36x2048 .bf16) (v2 : Vec Ideal S1x1x1024 .f32) (v5 v7 : Vec Ideal S2048x2048 .bf16)
    (v9 : Vec Ideal S2048x1024 .bf16) (v14 : Vec Ideal S2048 .f32) :
    k1_pay6 (F := Ideal) v0 v2 v5 v7 v9 v14 (ix2 p c)
      = runSum (term (k1_pay3 v0 v5) (k1_pay4 v0 v7) (k1_pay5 v2 v9 v14) p c) 0 2 0 := by
  simp only [k1_pay6, addf_apply, maximumf_apply, broadcast_apply, scalar_zero, rowC,
    sliceRow (k1_pay4 v0 v7) p c 0 (by decide), sliceRow (k1_pay4 v0 v7) p c 1 (by decide)]
  rfl

/-- Object 2's term before rectifying. -/
theorem pre2_apply (v0 : Vec Ideal S1x36x2048 .bf16) (v2 : Vec Ideal S1x1x1024 .f32) (v5 v7 : Vec Ideal S2048x2048 .bf16)
    (v9 : Vec Ideal S2048x1024 .bf16) (v14 : Vec Ideal S2048 .f32) :
    k1_pay7 (F := Ideal) v0 v2 v5 v7 v9 v14 (ix2 p c)
      = (k1_pay3 v0 v5 (ix2 p c) + k1_pay4 v0 v7 (ix2 (row36 2) c)) + k1_pay5 v2 v9 v14 (ix2 (0 : Fin 1) c) := by
  simp only [k1_pay7, addf_apply, rowC, sliceRow (k1_pay4 v0 v7) p c 2 (by decide)]

/-- Objects 3 to 8 added onto a total and a pending term. -/
theorem steps3_apply (acc pre : FVec Ideal S36x2048 .f32) :
    k1_pay8 (F := Ideal) A Bp C acc pre (Scalar.ofBits .f32 0x00000000#32) (ix2 p c)
      = runSum (term A Bp C p c) 3 6 (acc (ix2 p c) + max (pre (ix2 p c)) 0) := by
  simp only [k1_pay8, addf_apply, maximumf_apply, broadcast_apply, scalar_zero, rowC, sliceRow Bp p c 3 (by decide), sliceRow Bp p c 4 (by decide), sliceRow Bp p c 5 (by decide), sliceRow Bp p c 6 (by decide), sliceRow Bp p c 7 (by decide), sliceRow Bp p c 8 (by decide)]
  rfl

/-- Object 9's first two summands. -/
theorem pre9_apply : k1_pay9 (F := Ideal) A Bp (ix2 p c) = A (ix2 p c) + Bp (ix2 (row36 9) c) := by
  simp only [k1_pay9, addf_apply, sliceRow Bp p c 9 (by decide)]

/-- Objects 10 to 15 added onto a total and object 9's pending summands. -/
theorem steps10_apply (acc pre : FVec Ideal S36x2048 .f32) :
    k1_pay10 (F := Ideal) A Bp C acc pre (ix2 p c)
      = runSum (term A Bp C p c) 10 6 (acc (ix2 p c) + max (pre (ix2 p c) + C (ix2 (0 : Fin 1) c)) 0) := by
  simp only [k1_pay10, addf_apply, maximumf_apply, broadcast_apply, scalar_zero, rowC, sliceRow Bp p c 10 (by decide), sliceRow Bp p c 11 (by decide), sliceRow Bp p c 12 (by decide), sliceRow Bp p c 13 (by decide), sliceRow Bp p c 14 (by decide), sliceRow Bp p c 15 (by decide)]
  rfl

/-- Objects 16 to 21 added onto a total. -/
theorem steps16_apply (acc : FVec Ideal S36x2048 .f32) :
    k1_pay11 (F := Ideal) A Bp C acc (ix2 p c) = runSum (term A Bp C p c) 16 6 (acc (ix2 p c)) := by
  simp only [k1_pay11, addf_apply, maximumf_apply, broadcast_apply, scalar_zero, rowC, sliceRow Bp p c 16 (by decide), sliceRow Bp p c 17 (by decide), sliceRow Bp p c 18 (by decide), sliceRow Bp p c 19 (by decide), sliceRow Bp p c 20 (by decide), sliceRow Bp p c 21 (by decide)]
  rfl

/-- Object 22's term before rectifying. -/
theorem pre22_apply : k1_pay12 (F := Ideal) A Bp C (ix2 p c) = (A (ix2 p c) + Bp (ix2 (row36 22) c)) + C (ix2 (0 : Fin 1) c) := by
  simp only [k1_pay12, addf_apply, rowC, sliceRow Bp p c 22 (by decide)]

/-- Objects 23 to 28 added onto a total and a pending term. -/
theorem steps23_apply (acc pre : FVec Ideal S36x2048 .f32) :
    k1_pay13 (F := Ideal) A Bp C acc pre (Scalar.ofBits .f32 0x00000000#32) (ix2 p c)
      = runSum (term A Bp C p c) 23 6 (acc (ix2 p c) + max (pre (ix2 p c)) 0) := by
  simp only [k1_pay13, addf_apply, maximumf_apply, broadcast_apply, scalar_zero, rowC, sliceRow Bp p c 23 (by decide), sliceRow Bp p c 24 (by decide), sliceRow Bp p c 25 (by decide), sliceRow Bp p c 26 (by decide), sliceRow Bp p c 27 (by decide), sliceRow Bp p c 28 (by decide)]
  rfl

/-- Object 29's first two summands. -/
theorem pre29_apply : k1_pay14 (F := Ideal) A Bp (ix2 p c) = A (ix2 p c) + Bp (ix2 (row36 29) c) := by
  simp only [k1_pay14, addf_apply, sliceRow Bp p c 29 (by decide)]

/-- Objects 30 to 35 added onto a total and object 29's pending summands. -/
theorem steps30_apply (acc pre : FVec Ideal S36x2048 .f32) :
    k1_pay15 (F := Ideal) A Bp C acc pre (ix2 p c)
      = runSum (term A Bp C p c) 30 6 (acc (ix2 p c) + max (pre (ix2 p c) + C (ix2 (0 : Fin 1) c)) 0) := by
  simp only [k1_pay15, addf_apply, maximumf_apply, broadcast_apply, scalar_zero, rowC, sliceRow Bp p c 30 (by decide), sliceRow Bp p c 31 (by decide), sliceRow Bp p c 32 (by decide), sliceRow Bp p c 33 (by decide), sliceRow Bp p c 34 (by decide), sliceRow Bp p c 35 (by decide)]
  rfl

end Steps

/-- The pooled tile at (p, c): the 36 additions are the sum over the scene's objects j of the pair (p, j)'s term. -/
theorem pooled_apply (v0 : Vec Ideal S1x36x2048 .bf16) (v2 : Vec Ideal S1x1x1024 .f32) (v5 v7 : Vec Ideal S2048x2048 .bf16)
    (v9 : Vec Ideal S2048x1024 .bf16) (v14 : Vec Ideal S2048 .f32) (p : Fin 36) (c : Fin 2048) :
    k1_pay15 (F := Ideal) (k1_pay3 v0 v5) (k1_pay4 v0 v7) (k1_pay5 v2 v9 v14)
        (k1_pay13 (k1_pay3 v0 v5) (k1_pay4 v0 v7) (k1_pay5 v2 v9 v14)
          (k1_pay11 (k1_pay3 v0 v5) (k1_pay4 v0 v7) (k1_pay5 v2 v9 v14)
            (k1_pay10 (k1_pay3 v0 v5) (k1_pay4 v0 v7) (k1_pay5 v2 v9 v14)
              (k1_pay8 (k1_pay3 v0 v5) (k1_pay4 v0 v7) (k1_pay5 v2 v9 v14) (k1_pay6 v0 v2 v5 v7 v9 v14) (k1_pay7 v0 v2 v5 v7 v9 v14)
                (Scalar.ofBits .f32 0x00000000#32))
              (k1_pay9 (k1_pay3 v0 v5) (k1_pay4 v0 v7))))
          (k1_pay12 (k1_pay3 v0 v5) (k1_pay4 v0 v7) (k1_pay5 v2 v9 v14)) (Scalar.ofBits .f32 0x00000000#32))
        (k1_pay14 (k1_pay3 v0 v5) (k1_pay4 v0 v7)) (ix2 p c)
      = ∑ j : Fin 36, max ((k1_pay3 v0 v5 (ix2 p c) + k1_pay4 v0 v7 (ix2 j c)) + k1_pay5 v2 v9 v14 (ix2 (0 : Fin 1) c)) 0 := by
  rw [steps30_apply, steps23_apply, steps16_apply, steps10_apply, steps3_apply, steps0_apply, pre2_apply, pre9_apply,
    pre22_apply, pre29_apply]
  refine Eq.trans (b := runSum (term (k1_pay3 v0 v5) (k1_pay4 v0 v7) (k1_pay5 v2 v9 v14) p c) 0 36 0) rfl ?_
  rw [runSum_zero]
  exact Finset.sum_congr rfl fun j _ => by unfold term; rw [row36_val]

/-! ## The pooling kernel: the last layer -/

/-- Entry (0, p, c) of the pooling kernel's stored slab, from the pooled tile. -/
theorem lastLayer_apply (x : FVec Ideal S36x2048 .f32) (v307 : Vec Ideal S2048x2048 .bf16) (v310 : Vec Ideal S2048 .f32)
    (u : Fin 1) (p : Fin 36) (c : Fin 2048) :
    k1_pay1 (F := Ideal) x v307 v310 (ix3 u p c) = max ((∑ k : Fin 2048, x (ix2 p k) * v307 (ix2 c k)) + v310 (ix1 c)) 0 := by
  simp only [k1_pay1, matrixAsSlab_apply, addf_apply, maximumf_apply, broadcast_apply, scalar_zero, tileProduct_apply,
    truncf_apply, shapeCast_self, biasRow_apply]

end RelationPool.Body

end
-- ==== Proof.EmbedRegion.lean ====
/-
  The embedding kernel's region: its output array after the run.

  The kernel has one grid point and every window's block is its whole array, so what the point writes back is the
  body's tile of the arrays as the region finds them, and that block covers the output array: the array ends at
  `max (Q Wᵀ + β) 0`, entry by entry, of the region's entry contents Q (questions), W (weight), β (bias).
-/
import proofs.«119262_j54820962566529_1_alg».proof.Proof.Gen.KernelIdeal.Frame
import proofs.«119262_j54820962566529_1_alg».proof.Proof.PoolBody

set_option maxRecDepth 16384

noncomputable section

namespace Cert.KernelIdeal.Regions

open Cert.KernelIdeal Cert.KernelIdeal.Gen RelationPool
open Idealize.ShloMosaic Idealize.ShloMosaic.ValueIdx Idealize.ShloMosaic.TcCoe Idealize.SL.Sem
open Idealize.ShloMosaic.Pipeline (Dat)

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- The embedding of whole arrays, entry by entry. -/
def embedOf (Q : S64x1024.Idx → EReal) (W : S1024x1024.Idx → EReal) (β : S1024.Idx → EReal) : S64x1024.Idx → EReal :=
  fun i => max ((∑ k : Fin 1024, Q (ix2 (i 0) k) * W (ix2 (i 1) k)) + β (ix1 (i 1))) 0

variable (V : (c : Dev nD) → (b : Ref sig .tc) → Buf (Elt Ideal) ((c : Thread nD τ).loc b))

/-- The one point's block indices are all zero. -/
theorem index0 : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 :=
  (by decide +kernel : ∀ t : Fin grid0.N, _)

/-- The questions' block is the questions' array. -/
theorem questions_blk (c : Dev nD) (t : Fin cfg0.N) (y : S64x1024.Idx) : iblk0 V c 0 t y = V c main_v1 y := by
  obtain ⟨e0, e1, -⟩ := index0 t
  show V c main_v1 (((cfg0.win 0).blk t).view.emb y) = V c main_v1 y
  refine congrArg (V c main_v1) (funext fun a => Fin.ext ?_)
  match a with
  | ⟨0, _⟩ => show win0_0.index t (0 : Fin 2) * 64 + 1 * (y 0).val = (y 0).val; omega
  | ⟨1, _⟩ => show win0_0.index t (1 : Fin 2) * 1024 + 1 * (y 1).val = (y 1).val; omega

/-- The weight's block is the weight's array. -/
theorem weight_blk (c : Dev nD) (t : Fin cfg0.N) (y : S1024x1024.Idx) : iblk0 V c 1 t y = V c main_v4 y := by
  obtain ⟨-, -, e0, e1, -⟩ := index0 t
  show V c main_v4 (((cfg0.win 1).blk t).view.emb y) = V c main_v4 y
  refine congrArg (V c main_v4) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The bias' block is the bias' array. -/
theorem bias_blk (c : Dev nD) (t : Fin cfg0.N) (y : S1024.Idx) : iblk0 V c 2 t y = V c main_arg7 y := by
  obtain ⟨-, -, -, -, e0, -⟩ := index0 t
  show V c main_arg7 (((cfg0.win 2).blk t).view.emb y) = V c main_arg7 y
  refine congrArg (V c main_arg7) (funext fun a => Fin.ext ?_)
  match a with
  | ⟨0, _⟩ => show win0_2.index t (0 : Fin 1) * 1024 + 1 * (y 0).val = (y 0).val; omega

/-- The output's block sits at the array's origin. -/
theorem embed_emb (t : Fin cfg0.N) (y : S64x1024.Idx) : ((cfg0.win 3).blk t).view.emb y = y := by
  obtain ⟨-, -, -, -, -, e0, e1⟩ := index0 t
  refine funext fun a => Fin.ext ?_
  match a with
  | ⟨0, _⟩ => show win0_3.index t (0 : Fin 2) * 64 + 1 * (y 0).val = (y 0).val; omega
  | ⟨1, _⟩ => show win0_3.index t (1 : Fin 2) * 1024 + 1 * (y 1).val = (y 1).val; omega

/-- What the point writes back is its block of the embedding of the arrays as the region finds them. -/
theorem embed_flushed (c : Dev nD) (t : Fin cfg0.N) :
    (dat0 V c).flushed 3 t
      = ((cfg0.win 3).blk t).view.read (Elt Ideal) (embedOf (V c main_v1) (V c main_v4) (V c main_arg7)) := by
  show (cfg0.win 3).cut (grid0.coords t) ((dat0 V c).after 3 t) = _
  rw [after0_3]
  unfold out0_3
  rw [View.canon_unit_zero off2]
  simp only [View.ld_unit_zero (S := S64x1024) off2, View.ld_unit_zero (S := S1024x1024) off2,
    View.ld_unit_zero (S := S1024) off1]
  funext j
  show k0_pay1 (iblk0 V c 0 t) (iblk0 V c 1 t) (iblk0 V c 2 t) j
    = embedOf (V c main_v1) (V c main_v4) (V c main_arg7) (((cfg0.win 3).blk t).view.emb j)
  rw [embed_emb t j]
  obtain ⟨s, n, rfl⟩ : ∃ (s : Fin 64) (n : Fin 1024), j = ix2 s n := ⟨j 0, j 1, eq_ix2 j⟩
  refine (Body.embed_apply (iblk0 V c 0 t) (iblk0 V c 1 t) (iblk0 V c 2 t) s n).trans ?_
  simp only [questions_blk, weight_blk, bias_blk]
  rfl

/-- An index of the output array is in the point's block iff each coordinate is in the block's range. -/
theorem embed_mem_blk (t : Fin cfg0.N) (i : S64x1024.Idx) :
    i ∈ ((cfg0.win 3).blk t).view.set ↔ ∀ a : Fin 2, win0_3.index t a * S64x1024.size a ≤ (i a).val
      ∧ (i a).val < win0_3.index t a * S64x1024.size a + S64x1024.size a := by
  show i ∈ ((View.whole main_v5).slice (win0_3.rect t)).set ↔ _
  rw [View.set_slice_whole, Rect.mem_set_unit]
  exact Iff.rfl

/-- The embedding array after the region: the embedding of the arrays as the region finds them. -/
theorem embed_final (c : Dev nD) :
    (dat0 V c).arrAt 3 cfg0.N = embedOf (V c main_v1) (V c main_v4) (V c main_arg7) :=
  (dat0 V c).arrAt_eq_of_cover 3 _ (fun t _ => embed_flushed V c t) fun i => by
    refine ⟨t0_0, flush0_3 t0_0, ?_⟩
    obtain ⟨-, -, -, -, -, e0, e1⟩ := index0 t0_0
    rw [embed_mem_blk]
    intro a
    have h0 : (i 0).val < 64 := (i 0).isLt
    have h1 : (i 1).val < 1024 := (i 1).isLt
    match a with
    | ⟨0, _⟩ => show win0_3.index t0_0 (0 : Fin 2) * 64 ≤ (i 0).val ∧ (i 0).val < win0_3.index t0_0 (0 : Fin 2) * 64 + 64; omega
    | ⟨1, _⟩ => show win0_3.index t0_0 (1 : Fin 2) * 1024 ≤ (i 1).val ∧ (i 1).val < win0_3.index t0_0 (1 : Fin 2) * 1024 + 1024; omega

end Cert.KernelIdeal.Regions

end
-- ==== Proof.PoolRegion.lean ====
/-
  The pooling kernel's region: its output array after the run.

  The grid has one point per scene. At point t the kernel is handed scene t's slab of the objects and of the embedded
  questions, and the whole of both weights and both biases; it writes back scene t's slab of the output. The three
  products read the three column bands of the first weight through rectangles at column offsets 0, 2048 and 4096. So
  what point t writes back is scene t's block of the layer of the arrays as the region finds them, and the 64 blocks
  cover the output array: an entry (s, p, w) lies in the block of point s.
-/
import proofs.«119262_j54820962566529_1_alg».proof.Proof.Gen.KernelIdeal.Frame
import proofs.«119262_j54820962566529_1_alg».proof.Proof.PoolBody
import proofs.«119262_j54820962566529_1_alg».proof.Proof.EmbedRegion

set_option maxRecDepth 16384

noncomputable section

namespace Cert.KernelIdeal.Regions

open Cert.KernelIdeal Cert.KernelIdeal.Gen RelationPool TileForms
open Idealize.ShloMosaic Idealize.ShloMosaic.ValueIdx Idealize.ShloMosaic.TcCoe Idealize.SL.Sem
open Idealize.ShloMosaic.Pipeline (Dat)

/-- The stored slab at (0, p, w), from the six blocks the body is handed. -/
theorem slab_apply (x0 : Vec Ideal S1x36x2048 .bf16) (x1 : Vec Ideal S1x1x1024 .f32) (x2 : Vec Ideal S2048x5120 .bf16)
    (x3 : Vec Ideal S2048x2048 .bf16) (x4 x5 : Vec Ideal S2048 .f32) (u : Fin 1) (p : Fin 36) (w : Fin 2048) :
    out1_6 (F := Ideal) x0 x1 x2 x3 x4 x5 (ix3 u p w)
      = max ((∑ k : Fin 2048,
          (∑ j : Fin 36, max (((∑ d : Fin 2048, x0 (ix3 (0 : Fin 1) p d) * x2 (ix2 k (band 0 2048 (by decide) d)))
              + (∑ d : Fin 2048, x0 (ix3 (0 : Fin 1) j d) * x2 (ix2 k (band 2048 2048 (by decide) d))))
              + ((∑ e : Fin 1024, x1 (ix3 (0 : Fin 1) (0 : Fin 1) e) * x2 (ix2 k (band 4096 1024 (by decide) e))) + x4 (ix1 k))) 0)
            * x3 (ix2 w k)) + x5 (ix1 w)) 0 := by
  unfold out1_6
  rw [View.canon_unit_zero off3]
  simp only [View.ld_unit_zero (S := S1x36x2048) off3, View.ld_unit_zero (S := S1x1x1024) off3,
    View.ld_unit_zero (S := S2048) off1, View.ld_unit_zero (S := S2048x2048) off2]
  refine (Body.lastLayer_apply _ _ _ u p w).trans ?_
  refine congrArg (max · 0) (congrArg₂ (· + ·) (Finset.sum_congr rfl fun k _ => congrArg (· * _) ?_) rfl)
  refine (Body.pooled_apply x0 x1 (View.ld x2 r1_2) (View.ld x2 r1_3) (View.ld x2 r1_4) x4 p k).trans ?_
  refine Finset.sum_congr rfl fun j _ => ?_
  simp only [Body.firstPart_apply, Body.secondPart_apply, Body.askedPart_apply,
    fun d => ld_band x2 0 inb_S2048x5120_S2048x2048_0_0 k d (band 0 2048 (by decide) d) rfl,
    fun d => ld_band x2 2048 inb_S2048x5120_S2048x2048_0_2048 k d (band 2048 2048 (by decide) d) rfl,
    fun e => ld_band x2 4096 inb_S2048x5120_S2048x1024_0_4096 k e (band 4096 1024 (by decide) e) rfl]

variable (V : (c : Dev nD) → (b : Ref sig .tc) → Buf (Elt Ideal) ((c : Thread nD τ).loc b))

/-- The block indices at point t: scene t's slab of the objects, of the questions and of the output; everything
    else whole. -/
theorem index1 : ∀ t : Fin cfg1.N, win1_0.index t (0 : Fin 3) = t.val
    ∧ win1_0.index t (1 : Fin 3) = 0
    ∧ win1_0.index t (2 : Fin 3) = 0
    ∧ win1_1.index t (0 : Fin 3) = t.val
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 1) = 0
    ∧ win1_6.index t (0 : Fin 3) = t.val
    ∧ win1_6.index t (1 : Fin 3) = 0
    ∧ win1_6.index t (2 : Fin 3) = 0 :=
  (by decide +kernel : ∀ t : Fin grid1.N, _)

/-- The scene a grid point works on. -/
def scene (t : Fin cfg1.N) : Fin 64 := ⟨t.val, lt_of_lt_of_eq t.isLt N_1⟩

/-- The objects' block at point t is scene t's slab. -/
theorem objects_blk (c : Dev nD) (t : Fin cfg1.N) (u : Fin 1) (p : Fin 36) (d : Fin 2048) :
    iblk1 V c 0 t (ix3 u p d) = V c main_v0 (ix3 (scene t) p d) := by
  obtain ⟨e0, e1, e2, -, -, -, -, -, -, -, -, -, -, -, -⟩ := index1 t
  have hu : u.val = 0 := by have := u.isLt; omega
  show V c main_v0 (((cfg1.win 0).blk t).view.emb (ix3 u p d)) = V c main_v0 (ix3 (scene t) p d)
  refine congrArg (V c main_v0) (funext fun a => Fin.ext ?_)
  match a with
  | ⟨0, _⟩ => show win1_0.index t (0 : Fin 3) * 1 + 1 * u.val = t.val; omega
  | ⟨1, _⟩ => show win1_0.index t (1 : Fin 3) * 36 + 1 * p.val = p.val; omega
  | ⟨2, _⟩ => show win1_0.index t (2 : Fin 3) * 2048 + 1 * d.val = d.val; omega

/-- The questions' block at point t is scene t's embedded question. -/
theorem question_blk (c : Dev nD) (t : Fin cfg1.N) (u u' : Fin 1) (e : Fin 1024) :
    iblk1 V c 1 t (ix3 u u' e) = V c main_v6 (ix3 (scene t) (0 : Fin 1) e) := by
  obtain ⟨-, -, -, e0, e1, e2, -, -, -, -, -, -, -, -, -⟩ := index1 t
  have hu : u.val = 0 := by have := u.isLt; omega
  have hu' : u'.val = 0 := by have := u'.isLt; omega
  show V c main_v6 (((cfg1.win 1).blk t).view.emb (ix3 u u' e)) = V c main_v6 (ix3 (scene t) (0 : Fin 1) e)
  refine congrArg (V c main_v6) (funext fun a => Fin.ext ?_)
  match a with
  | ⟨0, _⟩ => show win1_1.index t (0 : Fin 3) * 1 + 1 * u.val = t.val; omega
  | ⟨1, _⟩ => show win1_1.index t (1 : Fin 3) * 1 + 1 * u'.val = 0; omega
  | ⟨2, _⟩ => show win1_1.index t (2 : Fin 3) * 1024 + 1 * e.val = e.val; omega

/-- The first weight's block is its array. -/
theorem weight1_blk (c : Dev nD) (t : Fin cfg1.N) (y : S2048x5120.Idx) : iblk1 V c 2 t y = V c main_v2 y := by
  obtain ⟨-, -, -, -, -, -, e0, e1, -, -, -, -, -, -, -⟩ := index1 t
  show V c main_v2 (((cfg1.win 2).blk t).view.emb y) = V c main_v2 y
  refine congrArg (V c main_v2) (funext fun a => Fin.ext ?_)
  match a with
  | ⟨0, _⟩ => show win1_2.index t (0 : Fin 2) * 2048 + 1 * (y 0).val = (y 0).val; omega
  | ⟨1, _⟩ => show win1_2.index t (1 : Fin 2) * 5120 + 1 * (y 1).val = (y 1).val; omega

/-- The last weight's block is its array. -/
theorem weight2_blk (c : Dev nD) (t : Fin cfg1.N) (y : S2048x2048.Idx) : iblk1 V c 3 t y = V c main_v3 y := by
  obtain ⟨-, -, -, -, -, -, -, -, e0, e1, -, -, -, -, -⟩ := index1 t
  show V c main_v3 (((cfg1.win 3).blk t).view.emb y) = V c main_v3 y
  refine congrArg (V c main_v3) (funext fun a => Fin.ext ?_)
  match a with
  | ⟨0, _⟩ => show win1_3.index t (0 : Fin 2) * 2048 + 1 * (y 0).val = (y 0).val; omega
  | ⟨1, _⟩ => show win1_3.index t (1 : Fin 2) * 2048 + 1 * (y 1).val = (y 1).val; omega

/-- The first bias' block is its array. -/
theorem bias1_blk (c : Dev nD) (t : Fin cfg1.N) (y : S2048.Idx) : iblk1 V c 4 t y = V c main_arg3 y := by
  obtain ⟨-, -, -, -, -, -, -, -, -, -, e0, -, -, -, -⟩ := index1 t
  show V c main_arg3 (((cfg1.win 4).blk t).view.emb y) = V c main_arg3 y
  refine congrArg (V c main_arg3) (funext fun a => Fin.ext ?_)
  match a with
  | ⟨0, _⟩ => show win1_4.index t (0 : Fin 1) * 2048 + 1 * (y 0).val = (y 0).val; omega

/-- The last bias' block is its array. -/
theorem bias2_blk (c : Dev nD) (t : Fin cfg1.N) (y : S2048.Idx) : iblk1 V c 5 t y = V c main_arg5 y := by
  obtain ⟨-, -, -, -, -, -, -, -, -, -, -, e0, -, -, -⟩ := index1 t
  show V c main_arg5 (((cfg1.win 5).blk t).view.emb y) = V c main_arg5 y
  refine congrArg (V c main_arg5) (funext fun a => Fin.ext ?_)
  match a with
  | ⟨0, _⟩ => show win1_5.index t (0 : Fin 1) * 2048 + 1 * (y 0).val = (y 0).val; omega

/-- The output's block at point t is scene t's slab of the output array. -/
theorem pool_emb (t : Fin cfg1.N) (u : Fin 1) (p : Fin 36) (w : Fin 2048) :
    ((cfg1.win 6).blk t).view.emb (ix3 u p w) = ix3 (scene t) p w := by
  obtain ⟨-, -, -, -, -, -, -, -, -, -, -, -, e0, e1, e2⟩ := index1 t
  have hu : u.val = 0 := by have := u.isLt; omega
  refine funext fun a => Fin.ext ?_
  match a with
  | ⟨0, _⟩ => show win1_6.index t (0 : Fin 3) * 1 + 1 * u.val = t.val; omega
  | ⟨1, _⟩ => show win1_6.index t (1 : Fin 3) * 36 + 1 * p.val = p.val; omega
  | ⟨2, _⟩ => show win1_6.index t (2 : Fin 3) * 2048 + 1 * w.val = w.val; omega

/-- The layer of the arrays as the region finds them: objects, first weight and bias, last weight and bias, and the
    embedded questions read off their [64, 1, 1024] array. -/
def layerOf (c : Dev nD) : S64x36x2048.Idx → EReal :=
  layer (V c main_v0) (V c main_v2) (V c main_arg3) (V c main_v3) (V c main_arg5) (fun s e => V c main_v6 (ix3 s (0 : Fin 1) e))

/-- What point t writes back is its block of the layer. -/
theorem pool_flushed (c : Dev nD) (t : Fin cfg1.N) :
    (dat1 V c).flushed 6 t = ((cfg1.win 6).blk t).view.read (Elt Ideal) (layerOf V c) := by
  show (cfg1.win 6).cut (grid1.coords t) ((dat1 V c).after 6 t) = _
  rw [after1_6]
  funext j
  obtain ⟨u, p, w, rfl⟩ : ∃ (u : Fin 1) (p : Fin 36) (w : Fin 2048), j = ix3 u p w := ⟨j 0, j 1, j 2, eq_ix3 j⟩
  show out1_6 (iblk1 V c 0 t) (iblk1 V c 1 t) (iblk1 V c 2 t) (iblk1 V c 3 t) (iblk1 V c 4 t) (iblk1 V c 5 t) (ix3 u p w)
    = layerOf V c (((cfg1.win 6).blk t).view.emb (ix3 u p w))
  rw [pool_emb t u p w]
  refine (slab_apply (iblk1 V c 0 t) (iblk1 V c 1 t) (iblk1 V c 2 t) (iblk1 V c 3 t) (iblk1 V c 4 t) (iblk1 V c 5 t) u p w).trans ?_
  simp only [objects_blk, question_blk, weight1_blk, weight2_blk, bias1_blk, bias2_blk]
  rfl

/-- An index of the output array is in point t's block iff each coordinate is in the block's range. -/
theorem pool_mem_blk (t : Fin cfg1.N) (i : S64x36x2048.Idx) :
    i ∈ ((cfg1.win 6).blk t).view.set ↔ ∀ a : Fin 3, win1_6.index t a * S1x36x2048.size a ≤ (i a).val
      ∧ (i a).val < win1_6.index t a * S1x36x2048.size a + S1x36x2048.size a := by
  show i ∈ ((View.whole main_v7).slice (win1_6.rect t)).set ↔ _
  rw [View.set_slice_whole, Rect.mem_set_unit]
  exact Iff.rfl

/-- The output array after the region: the layer of the arrays as the region finds them. -/
theorem pool_final (c : Dev nD) : (dat1 V c).arrAt 6 cfg1.N = layerOf V c :=
  (dat1 V c).arrAt_eq_of_cover 6 _ (fun t _ => pool_flushed V c t) fun i => by
    have hN : grid1.N = 64 := N_1
    have h0 : (i 0).val < 64 := (i 0).isLt
    have h1 : (i 1).val < 36 := (i 1).isLt
    have h2 : (i 2).val < 2048 := (i 2).isLt
    obtain ⟨t, ht⟩ : ∃ t : Fin cfg1.N, t.val = (i 0).val := ⟨⟨(i 0).val, by show (i 0).val < grid1.N; omega⟩, rfl⟩
    refine ⟨t, flush1_6 t, ?_⟩
    obtain ⟨-, -, -, -, -, -, -, -, -, -, -, -, e0, e1, e2⟩ := index1 t
    rw [pool_mem_blk]
    intro a
    match a with
    | ⟨0, _⟩ => show win1_6.index t (0 : Fin 3) * 1 ≤ (i 0).val ∧ (i 0).val < win1_6.index t (0 : Fin 3) * 1 + 1; omega
    | ⟨1, _⟩ => show win1_6.index t (1 : Fin 3) * 36 ≤ (i 1).val ∧ (i 1).val < win1_6.index t (1 : Fin 3) * 36 + 36; omega
    | ⟨2, _⟩ => show win1_6.index t (2 : Fin 3) * 2048 ≤ (i 2).val ∧ (i 2).val < win1_6.index t (2 : Fin 3) * 2048 + 2048; omega

end Cert.KernelIdeal.Regions

end
-- ==== Proof.KernelValue.lean ====
/-
  The two-kernel program computes the specification.

  Before the first kernel the host narrows five arguments' format, which on the extended reals changes nothing; between
  the kernels it gives the first kernel's [64, 1024] output a unit middle axis. So the first kernel finds the
  questions, the embedding weight and its bias as launched and leaves the embedded questions; the second finds the
  objects, both weights and both biases as launched and the embedded questions under the reshape, and leaves the
  layers of those: the specification's result of the eight arguments.
-/
import proofs.«119262_j54820962566529_1_alg».proof.Proof.KernelRun
import proofs.«119262_j54820962566529_1_alg».proof.Proof.EmbedRegion
import proofs.«119262_j54820962566529_1_alg».proof.Proof.PoolRegion

set_option maxRecDepth 16384

noncomputable section

namespace Cert.KernelIdeal.Named

open Cert.KernelIdeal Cert.KernelIdeal.Gen Cert.KernelIdeal.Regions RelationPool TileForms
open Idealize.ShloMosaic Idealize.ShloMosaic.ValueIdx Idealize.ShloMosaic.TcCoe Idealize.SL.Sem Idealize.ShloMosaic.StableHlo

/-- The layers depend only on their six data. -/
theorem layer_congr {v v' : (⟨3, ![64, 36, 2048]⟩ : Shape).Idx → EReal} {W1 W1' : (⟨2, ![2048, 5120]⟩ : Shape).Idx → EReal}
    {b1 b1' : (⟨1, ![2048]⟩ : Shape).Idx → EReal} {W2 W2' : (⟨2, ![2048, 2048]⟩ : Shape).Idx → EReal}
    {b2 b2' : (⟨1, ![2048]⟩ : Shape).Idx → EReal} {e e' : Fin 64 → Fin 1024 → EReal}
    (hv : v = v') (hW1 : W1 = W1') (hb1 : b1 = b1') (hW2 : W2 = W2') (hb2 : b2 = b2') (he : e = e') :
    layer v W1 b1 W2 b2 e = layer v' W1' b1' W2' b2' e' := by
  rw [hv, hW1, hb1, hW2, hb2, he]

variable (m : (ℓ : Loc nD τ sig) → Buf (Elt Ideal) ℓ) (ρ : Dev nD → PrngReg)

/-! ## What the first kernel finds -/

/-- The first kernel finds the questions as launched. -/
theorem found_questions (c : Dev nD) :
    (V1 m ρ c main_v1 : S64x1024.Idx → EReal) = m ((c : Thread nD τ).loc main_arg1) := by
  show StableHlo.after hostOps0 (W0 m ρ c) (Proc.devRef .tc main_v1) = _
  after_results <;> rfl

/-- The first kernel finds the embedding weight as launched. -/
theorem found_embedWeight (c : Dev nD) :
    (V1 m ρ c main_v4 : S1024x1024.Idx → EReal) = m ((c : Thread nD τ).loc main_arg6) := by
  show StableHlo.after hostOps0 (W0 m ρ c) (Proc.devRef .tc main_v4) = _
  after_results <;> rfl

/-- The first kernel finds the embedding bias as launched. -/
theorem found_embedBias (c : Dev nD) :
    (V1 m ρ c main_arg7 : S1024.Idx → EReal) = m ((c : Thread nD τ).loc main_arg7) := by
  show StableHlo.after hostOps0 (W0 m ρ c) (Proc.devRef .tc main_arg7) = _
  after_results <;> rfl

/-! ## What the second kernel finds -/

/-- The second kernel finds the objects as launched. -/
theorem found_objects (c : Dev nD) :
    (V3 m ρ c main_v0 : S64x36x2048.Idx → EReal) = m ((c : Thread nD τ).loc main_arg0) := by
  have h1 : W3 m ρ c (Proc.devRef .tc main_v0) = W2 m ρ c (Proc.devRef .tc main_v0) := by
    show StableHlo.after hostOps1 (W2 m ρ c) (Proc.devRef .tc main_v0) = _
    after_results
  have h2 : W2 m ρ c (Proc.devRef .tc main_v0) = W1 m ρ c (Proc.devRef .tc main_v0) := W2_of_ne m ρ c main_v0 (by decide)
  refine (h1.trans h2).trans ?_
  show StableHlo.after hostOps0 (W0 m ρ c) (Proc.devRef .tc main_v0) = _
  after_results <;> rfl

/-- The second kernel finds the first weight as launched. -/
theorem found_weight1 (c : Dev nD) :
    (V3 m ρ c main_v2 : S2048x5120.Idx → EReal) = m ((c : Thread nD τ).loc main_arg2) := by
  have h1 : W3 m ρ c (Proc.devRef .tc main_v2) = W2 m ρ c (Proc.devRef .tc main_v2) := by
    show StableHlo.after hostOps1 (W2 m ρ c) (Proc.devRef .tc main_v2) = _
    after_results
  have h2 : W2 m ρ c (Proc.devRef .tc main_v2) = W1 m ρ c (Proc.devRef .tc main_v2) := W2_of_ne m ρ c main_v2 (by decide)
  refine (h1.trans h2).trans ?_
  show StableHlo.after hostOps0 (W0 m ρ c) (Proc.devRef .tc main_v2) = _
  after_results <;> rfl

/-- The second kernel finds the first bias as launched. -/
theorem found_bias1 (c : Dev nD) :
    (V3 m ρ c main_arg3 : S2048.Idx → EReal) = m ((c : Thread nD τ).loc main_arg3) := by
  have h1 : W3 m ρ c (Proc.devRef .tc main_arg3) = W2 m ρ c (Proc.devRef .tc main_arg3) := by
    show StableHlo.after hostOps1 (W2 m ρ c) (Proc.devRef .tc main_arg3) = _
    after_results
  have h2 : W2 m ρ c (Proc.devRef .tc main_arg3) = W1 m ρ c (Proc.devRef .tc main_arg3) := W2_of_ne m ρ c main_arg3 (by decide)
  refine (h1.trans h2).trans ?_
  show StableHlo.after hostOps0 (W0 m ρ c) (Proc.devRef .tc main_arg3) = _
  after_results <;> rfl

/-- The second kernel finds the last weight as launched. -/
theorem found_weight2 (c : Dev nD) :
    (V3 m ρ c main_v3 : S2048x2048.Idx → EReal) = m ((c : Thread nD τ).loc main_arg4) := by
  have h1 : W3 m ρ c (Proc.devRef .tc main_v3) = W2 m ρ c (Proc.devRef .tc main_v3) := by
    show StableHlo.after hostOps1 (W2 m ρ c) (Proc.devRef .tc main_v3) = _
    after_results
  have h2 : W2 m ρ c (Proc.devRef .tc main_v3) = W1 m ρ c (Proc.devRef .tc main_v3) := W2_of_ne m ρ c main_v3 (by decide)
  refine (h1.trans h2).trans ?_
  show StableHlo.after hostOps0 (W0 m ρ c) (Proc.devRef .tc main_v3) = _
  after_results <;> rfl

/-- The second kernel finds the last bias as launched. -/
theorem found_bias2 (c : Dev nD) :
    (V3 m ρ c main_arg5 : S2048.Idx → EReal) = m ((c : Thread nD τ).loc main_arg5) := by
  have h1 : W3 m ρ c (Proc.devRef .tc main_arg5) = W2 m ρ c (Proc.devRef .tc main_arg5) := by
    show StableHlo.after hostOps1 (W2 m ρ c) (Proc.devRef .tc main_arg5) = _
    after_results
  have h2 : W2 m ρ c (Proc.devRef .tc main_arg5) = W1 m ρ c (Proc.devRef .tc main_arg5) := W2_of_ne m ρ c main_arg5 (by decide)
  refine (h1.trans h2).trans ?_
  show StableHlo.after hostOps0 (W0 m ρ c) (Proc.devRef .tc main_arg5) = _
  after_results <;> rfl

/-- The second kernel finds, at (s, 0, e), the embedded question of scene s at feature e. -/
theorem found_embedded (c : Dev nD) (s : Fin 64) (e : Fin 1024) :
    V3 m ρ c main_v6 (ix3 s (0 : Fin 1) e)
      = embed (m ((c : Thread nD τ).loc main_arg1)) (m ((c : Thread nD τ).loc main_arg6)) (m ((c : Thread nD τ).loc main_arg7)) s e := by
  have h1 : (W3 m ρ c (Proc.devRef .tc main_v6) : S64x1x1024.Idx → EReal)
      = shapeCast S64x1x1024 (W2 m ρ c (Proc.devRef .tc main_v5) : S64x1024.Idx → EReal) shapeCasts_S64x1024_S64x1x1024 := by
    show StableHlo.after hostOps1 (W2 m ρ c) (Proc.devRef .tc main_v6) = _
    after_results
    rfl
  have h2 : (W2 m ρ c (Proc.devRef .tc main_v5) : S64x1024.Idx → EReal)
      = embedOf (V1 m ρ c main_v1) (V1 m ρ c main_v4) (V1 m ρ c main_arg7) :=
    (W2_arr m ρ c 3).trans (embed_final (V1 m ρ) c)
  show (W3 m ρ c (Proc.devRef .tc main_v6) : S64x1x1024.Idx → EReal) (ix3 s (0 : Fin 1) e) = _
  rw [h1, midUnit_apply, h2, found_questions, found_embedWeight, found_embedBias]
  rfl

/-! ## The program's value -/

/-- The result's buffer ends at the specification's result of the eight arguments as launched. -/
theorem value (c : Dev nD) :
    (W4 m ρ c (Proc.devRef .tc main_v7) : S64x36x2048.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  ((result_eq m ρ c).trans (pool_final (V3 m ρ) c)).trans
    (layer_congr (found_objects m ρ c) (found_weight1 m ρ c) (found_bias1 m ρ c) (found_weight2 m ρ c) (found_bias2 m ρ c)
      (funext fun s => funext fun e => found_embedded m ρ c s e))

end Cert.KernelIdeal.Named

end
-- ==== Proof.RefIsSpec.lean ====
/-
  The reference computes the specification.

  The reference's operations, read one at a time at an index, compose to the layers of the specification: the
  transposed weight against the questions is the sum over k of q (s, k) · W3 (n, k); the three column slices of W1 are
  its three bands; the two broadcasts of the first and second parts into the four-axis array of pairs read (s, i, u) and
  (s, j, u) at the pair (s, i, j, u); the sum over the pairs' second axis is the sum over j; and the last contraction is
  against W2's rows. The zero the maxima and the sum start from is the number zero.
-/
import proofs.«119262_j54820962566529_1_alg».proof.Proof.Gen.ReferenceIdeal.Read
import proofs.«119262_j54820962566529_1_alg».proof.Proof.Spec

noncomputable section

namespace Cert.ReferenceIdeal.RefValue

open Cert.ReferenceIdeal Cert.ReferenceIdeal.Gen Cert.ReferenceIdeal.Read RelationPool
open Idealize.ShloMosaic Idealize.ShloMosaic.ValueIdx

variable (x0 : (⟨S64x36x2048, .f32⟩ : BufTy).Contents (Elt Ideal)) (x1 : (⟨S64x1024, .f32⟩ : BufTy).Contents (Elt Ideal))
  (x2 : (⟨S2048x5120, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 : (⟨S1024x1024, .f32⟩ : BufTy).Contents (Elt Ideal)) (x7 : (⟨S1024, .f32⟩ : BufTy).Contents (Elt Ideal))

theorem zeroWord : (FloatOps.ofBits (F := Ideal) .f32 0x00000000#32 : EReal) = 0 := Ideal.ofBits_zero_f32

/-- The embedded question. -/
theorem ref_embed (s : Fin 64) (n : Fin 1024) :
    val_main_v5 (F := Ideal) x1 x6 x7 (ix2 s n) = embed x1 x6 x7 s n := by
  rw [val_main_v5_apply, val_main_v4_apply, val_main_v1_apply, val_main_v3_apply, val_main_v2_apply,
    val_main_call0_v0_apply, val_main_call0_cst_apply, zeroWord, Ideal.maximumf_def, Ideal.addf_def]
  have e0 : idx_main_v2 (idx_main_v3 (ix2 s n)) = ix1 n := funext fun a => by
    match a with
    | ⟨0, _⟩ => rfl
  rw [e0]
  unfold embed
  refine congrArg (max · 0) (congrArg₂ (· + ·) (Finset.sum_congr rfl fun k _ => ?_) rfl)
  have e1 : lidx_main_v1 (ix2 s n) k = ix2 s k := funext fun a => by
    match a with
    | ⟨0, _⟩ => rfl
    | ⟨1, _⟩ => rfl
  have e2 : idx_main_v0 (ridx_main_v1 (ix2 s n) k) = ix2 n k := funext fun a => by
    match a with
    | ⟨0, _⟩ => rfl
    | ⟨1, _⟩ => rfl
  rw [e1, val_main_v0_apply, e2]

/-- The first object's part: the scene against the first band of W1. -/
theorem ref_first (s : Fin 64) (p : Fin 36) (u : Fin 2048) :
    val_main_v9 (F := Ideal) x0 x2 (ix3 s p u) = first x0 x2 s p u := by
  rw [val_main_v9_apply]
  unfold first
  refine Finset.sum_congr rfl fun d _ => ?_
  have e1 : lidx_main_v9 (ix3 s p u) d = ix3 s p d := funext fun a => by
    match a with
    | ⟨0, _⟩ => rfl
    | ⟨1, _⟩ => rfl
    | ⟨2, _⟩ => rfl
  have e2 : idx_main_v6 (ridx_main_v9 (ix3 s p u) d) = ix2 u (band 0 2048 (by decide) d) := funext fun a => by
    match a with
    | ⟨0, _⟩ => rfl
    | ⟨1, _⟩ => exact Fin.ext (by show d.val = 0 + d.val; omega)
  rw [e1, val_main_v6_apply, e2]

/-- The second object's part: the scene against the second band. -/
theorem ref_second (s : Fin 64) (j : Fin 36) (u : Fin 2048) :
    val_main_v10 (F := Ideal) x0 x2 (ix3 s j u) = second x0 x2 s j u := by
  rw [val_main_v10_apply]
  unfold second
  refine Finset.sum_congr rfl fun d _ => ?_
  have e1 : lidx_main_v10 (ix3 s j u) d = ix3 s j d := funext fun a => by
    match a with
    | ⟨0, _⟩ => rfl
    | ⟨1, _⟩ => rfl
    | ⟨2, _⟩ => rfl
  have e2 : idx_main_v7 (ridx_main_v10 (ix3 s j u) d) = ix2 u (band 2048 2048 (by decide) d) := funext fun a => by
    match a with
    | ⟨0, _⟩ => rfl
    | ⟨1, _⟩ => rfl
  rw [e1, val_main_v7_apply, e2]

/-- The question's part: the embedded question against the third band, plus the bias. -/
theorem ref_asked (s : Fin 64) (u : Fin 2048) :
    val_main_v14 (F := Ideal) x1 x2 x3 x6 x7 (ix2 s u) = asked x2 x3 (embed x1 x6 x7) s u := by
  rw [val_main_v14_apply, val_main_v11_apply, val_main_v13_apply, val_main_v12_apply, Ideal.addf_def]
  have e0 : idx_main_v12 (idx_main_v13 (ix2 s u)) = ix1 u := funext fun a => by
    match a with
    | ⟨0, _⟩ => rfl
  rw [e0]
  unfold asked
  refine congrArg₂ (· + ·) (Finset.sum_congr rfl fun k _ => ?_) rfl
  have e1 : lidx_main_v11 (ix2 s u) k = ix2 s k := funext fun a => by
    match a with
    | ⟨0, _⟩ => rfl
    | ⟨1, _⟩ => rfl
  have e2 : idx_main_v8 (ridx_main_v11 (ix2 s u) k) = ix2 u (band 4096 1024 (by decide) k) := funext fun a => by
    match a with
    | ⟨0, _⟩ => rfl
    | ⟨1, _⟩ => rfl
  rw [e1, val_main_v8_apply, e2, ref_embed]

/-- The pairs of object p with every object of its scene, rectified and summed. -/
theorem ref_pooled (s : Fin 64) (p : Fin 36) (u : Fin 2048) :
    val_main_v24 (F := Ideal) x0 x1 x2 x3 x6 x7 (ix3 s p u) = pooled x0 x2 x3 (embed x1 x6 x7) s p u := by
  rw [val_main_v24_apply, val_main_cst_apply, zeroWord, zero_add]
  unfold pooled
  refine Finset.sum_congr rfl fun j _ => ?_
  rw [val_main_v23_apply, val_main_v22_apply, val_main_v19_apply, val_main_v17_apply, val_main_v15_apply,
    val_main_v18_apply, val_main_v16_apply, val_main_v21_apply, val_main_v20_apply, val_main_call1_v0_apply,
    val_main_call1_cst_apply, zeroWord, Ideal.maximumf_def, Ideal.addf_def, Ideal.addf_def]
  have e1 : idx_main_v15 (idx_main_v17 (idx_main_v24 (ix3 s p u) j)) = ix3 s p u := funext fun a => by
    match a with
    | ⟨0, _⟩ => rfl
    | ⟨1, _⟩ => rfl
    | ⟨2, _⟩ => rfl
  have e2 : idx_main_v16 (idx_main_v18 (idx_main_v24 (ix3 s p u) j)) = ix3 s j u := funext fun a => by
    match a with
    | ⟨0, _⟩ => rfl
    | ⟨1, _⟩ => rfl
    | ⟨2, _⟩ => rfl
  have e3 : idx_main_v20 (idx_main_v21 (idx_main_v24 (ix3 s p u) j)) = ix2 s u := funext fun a => by
    match a with
    | ⟨0, _⟩ => rfl
    | ⟨1, _⟩ => rfl
  rw [e1, e2, e3, ref_first, ref_second, ref_asked]

/-- The reference's result is the specification's, as a function of the eight arguments. -/
theorem ref_result :
    val_main_v29 (F := Ideal) x0 x1 x2 x3 x4 x5 x6 x7 = result x0 x1 x2 x3 x4 x5 x6 x7 := by
  funext i
  obtain ⟨s, p, w, rfl⟩ : ∃ (s : Fin 64) (p : Fin 36) (w : Fin 2048), i = ix3 s p w := ⟨i 0, i 1, i 2, eq_ix3 i⟩
  rw [val_main_v29_apply, val_main_v28_apply, val_main_v25_apply, val_main_v27_apply, val_main_v26_apply,
    val_main_call2_v0_apply, val_main_call2_cst_apply, zeroWord, Ideal.maximumf_def, Ideal.addf_def]
  have e0 : idx_main_v26 (idx_main_v27 (ix3 s p w)) = ix1 w := funext fun a => by
    match a with
    | ⟨0, _⟩ => rfl
  rw [e0]
  show _ = max (∑ u : Fin 2048, pooled x0 x2 x3 (embed x1 x6 x7) s p u * x4 (ix2 w u) + x5 (ix1 w)) 0
  refine congrArg (max · 0) (congrArg₂ (· + ·) (Finset.sum_congr rfl fun u _ => ?_) rfl)
  have e1 : lidx_main_v25 (ix3 s p w) u = ix3 s p u := funext fun a => by
    match a with
    | ⟨0, _⟩ => rfl
    | ⟨1, _⟩ => rfl
    | ⟨2, _⟩ => rfl
  have e2 : ridx_main_v25 (ix3 s p w) u = ix2 w u := funext fun a => by
    match a with
    | ⟨0, _⟩ => rfl
    | ⟨1, _⟩ => rfl
  rw [e1, e2, ref_pooled]

end Cert.ReferenceIdeal.RefValue

end
-- ==== Proof.lean ====
/-
  A two-kernel relation layer against its array-language reference, equal on the extended reals.

  The kernel program embeds the questions with one kernel (`max (q W3ᵀ + b3) 0`) and, with a second kernel run once per
  scene, forms for every object i of the scene the sum over the scene's objects j of `max ((a i + b j) + c) 0` — a, b
  and c the scene's objects and its embedded question through the three column bands of W1 — by 36 additions onto a
  running total, and applies the last layer `max (x W2ᵀ + b2) 0`. The reference writes the same layers over whole
  arrays: the pairs as one four-axis array and their sum as one reduction. Both are the specification's result
  (Proof/Spec.lean) of the eight arguments: the kernel program because each kernel's blocks are restrictions of one
  whole-array function and cover its output, a running total being the finite sum of its terms; the reference operation
  by operation. Changes of float format are the identity on the extended reals, and no step uses more than the
  commutative monoid of sums, so the precondition that the inputs are finite is never opened.

  The three frame claims are the generated frames (the reference's from its generated run); the idealization rewrote no
  operation, so the preservation claim is trivial.
-/
import proofs.«119262_j54820962566529_1_alg».proof.Defs
import proofs.«119262_j54820962566529_1_alg».proof.Proof.Gen.Kernel
import proofs.«119262_j54820962566529_1_alg».proof.Proof.Gen.Kernel.Skeleton
import proofs.«119262_j54820962566529_1_alg».proof.Proof.Gen.Kernel.Launch
import proofs.«119262_j54820962566529_1_alg».proof.Proof.Gen.Kernel.Points
import proofs.«119262_j54820962566529_1_alg».proof.Proof.Gen.Kernel.Frame
import proofs.«119262_j54820962566529_1_alg».proof.Proof.Gen.KernelIdeal
import proofs.«119262_j54820962566529_1_alg».proof.Proof.Gen.KernelIdeal.Skeleton
import proofs.«119262_j54820962566529_1_alg».proof.Proof.Gen.KernelIdeal.Launch
import proofs.«119262_j54820962566529_1_alg».proof.Proof.Gen.KernelIdeal.Points
import proofs.«119262_j54820962566529_1_alg».proof.Proof.Gen.KernelIdeal.Frame
import proofs.«119262_j54820962566529_1_alg».proof.Proof.Gen.ReferenceIdeal
import proofs.«119262_j54820962566529_1_alg».proof.Proof.Gen.ReferenceIdeal.Run
import proofs.«119262_j54820962566529_1_alg».proof.Proof.Gen.ReferenceIdeal.Read
import proofs.«119262_j54820962566529_1_alg».proof.Proof.Gen.Pre_finite_inputs
import proofs.«119262_j54820962566529_1_alg».proof.Proof.KernelValue
import proofs.«119262_j54820962566529_1_alg».proof.Proof.RefIsSpec
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the specification's result of them. -/
theorem algebraic : Cert.algebraic_KernelIdeal_ReferenceIdeal := by
  intro m ρ m' ρ' _ hagree
  refine ⟨fun c => RelationPool.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Named.value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefValue.ref_result,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
